-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1000000 32) (main_arg2 : FVec F S256x128 .f32) (main_arg3 : FVec F S128 .f32) (main_arg4 : FVec F S256x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S100000x128 : Shape := ⟨2, ![100000, 128]⟩
abbrev S2x1000000 : Shape := ⟨2, ![2, 1000000]⟩
abbrev S256x128 : Shape := ⟨2, ![256, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S100000x1 : Shape := ⟨2, ![100000, 1]⟩
abbrev S128x128 : Shape := ⟨2, ![128, 128]⟩
abbrev S5000x128 : Shape := ⟨2, ![5000, 128]⟩
abbrev S1x128 : Shape := ⟨2, ![1, 128]⟩

abbrev nBuf : Space → Nat
  | .hbm => 67
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x128, .f32⟩
  | .hbm, ⟨38, _⟩ => ⟨S_, .f32⟩
  | .hbm, ⟨39, _⟩ => ⟨S100000x128, .f32⟩
  | .hbm, ⟨40, _⟩ => ⟨S1000000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x128, .f32⟩
  | .hbm, ⟨57, _⟩ => ⟨S_, .f32⟩
  | .hbm, ⟨58, _⟩ => ⟨S100000x128, .f32⟩
  | .hbm, ⟨59, _⟩ => ⟨S1000000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S128x128, .f32⟩
  | .hbm, ⟨65, _⟩ => ⟨S128x128, .f32⟩
  | .hbm, ⟨66, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S256x128 : Shape := ⟨2, ![256, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S100000x1 : Shape := ⟨2, ![100000, 1]⟩
abbrev S100000x256 : Shape := ⟨2, ![100000, 256]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x128, .f32⟩
  | .hbm, ⟨38, _⟩ => ⟨S_, .f32⟩
  | .hbm, ⟨39, _⟩ => ⟨S100000x128, .f32⟩
  | .hbm, ⟨40, _⟩ => ⟨S1000000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000x256, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x128, .f32⟩
  | .hbm, ⟨62, _⟩ => ⟨S_, .f32⟩
  | .hbm, ⟨63, _⟩ => ⟨S100000x128, .f32⟩
  | .hbm, ⟨64, _⟩ => ⟨S1000000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x256, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x256_S256x128_S100000x128_1_0_0_1_n_n_wf : DotDims.WF S100000x256 S256x128 S100000x128 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.SageLaw.lean ====
/-
  One GraphSAGE linear step over the extended reals, and the one law that joins its two spellings.

  For a feature array `f` and a neighbour-mean array `a` (both 100000 × 128), stacked weights `W` (256 × 128: the upper
  128 rows multiply the node's own features, the lower 128 rows its neighbours' mean) and a bias `b` (128), the step's
  entry at row `r`, column `q` is

      ∑ k < 128, f[r,k] · W[k,q]  +  ∑ k < 128, a[r,k] · W[128+k,q]  +  b[q].

  One program computes exactly these two sums (two 128-term products added); the other joins `f` and `a` along the
  feature axis into one 256-wide row and takes ONE 256-term product with `W`. The two agree because a sum over 256
  consecutive indices is the sum over the first 128 plus the sum over the last 128 — a statement about addition in a
  commutative monoid, so it holds on the extended reals with no finiteness assumption.
-/
import Idealize.ShloMosaic.PureOps.Ideal
import Idealize.ShloMosaic.Lib.ValueIdx

noncomputable section

namespace Cert.Sage

open Idealize.ShloMosaic Idealize.ShloMosaic.ValueIdx

/-- The feature arrays' shape, the stacked weights' shape, one half of the weights, the bias. -/
abbrev SN : Shape := ⟨2, ![100000, 128]⟩
abbrev SW : Shape := ⟨2, ![256, 128]⟩
abbrev SH : Shape := ⟨2, ![128, 128]⟩
abbrev SB : Shape := ⟨1, ![128]⟩

/-- Row `k` of the upper half of the stacked weights, and row `k` of the lower half. -/
abbrev lo (k : Fin 128) : Fin 256 := ⟨k.val, by omega⟩
abbrev hi (k : Fin 128) : Fin 256 := ⟨128 + k.val, by omega⟩

/-- The step's entry at row `r`, column `q`, from the two halves of the weights given separately. -/
def stepAt (f a : SN.Idx → EReal) (wx wa : SH.Idx → EReal) (b : SB.Idx → EReal) (r : Fin 100000) (q : Fin 128) : EReal :=
  (∑ k : Fin 128, f (ix2 r k) * wx (ix2 k q) + ∑ k : Fin 128, a (ix2 r k) * wa (ix2 k q)) + b (ix1 q)

/-- The step as an array, and the step followed by the maximum with a threshold `z`. -/
def step (f a : SN.Idx → EReal) (wx wa : SH.Idx → EReal) (b : SB.Idx → EReal) : SN.Idx → EReal :=
  fun i => stepAt f a wx wa b (i 0) (i 1)

def stepMax (z : EReal) (f a : SN.Idx → EReal) (wx wa : SH.Idx → EReal) (b : SB.Idx → EReal) : SN.Idx → EReal :=
  fun i => max (stepAt f a wx wa b (i 0) (i 1)) z

/-- The upper and the lower half of the stacked weights. -/
def upper (W : SW.Idx → EReal) : SH.Idx → EReal := fun j => W (ix2 (lo (j 0)) (j 1))
def lower (W : SW.Idx → EReal) : SH.Idx → EReal := fun j => W (ix2 (hi (j 0)) (j 1))

/-- A sum over 256 consecutive indices is the sum over the first 128 plus the sum over the last 128. -/
theorem sum_halves (u : Fin 256 → EReal) : ∑ k : Fin 256, u k = ∑ k : Fin 128, u (lo k) + ∑ k : Fin 128, u (hi k) :=
  Fin.sum_univ_add (a := 128) (b := 128) u

/-- THE LAW. If a 256-wide row `cat` is `f`'s row followed by `a`'s row, its product with the stacked weights is the sum
    of the two 128-term products with the halves. -/
theorem joined_row (f a : SN.Idx → EReal) (W : SW.Idx → EReal) (b : SB.Idx → EReal) (r : Fin 100000) (q : Fin 128)
    (cat : Fin 256 → EReal) (hlo : ∀ k : Fin 128, cat (lo k) = f (ix2 r k)) (hhi : ∀ k : Fin 128, cat (hi k) = a (ix2 r k)) :
    (∑ k : Fin 256, cat k * W (ix2 k q)) + b (ix1 q) = stepAt f a (upper W) (lower W) b r q := by
  unfold stepAt upper lower
  rw [sum_halves]
  simp only [hlo, hhi]

end Cert.Sage

end
-- ==== Proof.Aggregate.lean ====
/-
  The neighbour mean, as ONE function of the edge list and a feature array, and the two-layer network built on it.

  The edge list is a 2 × 1000000 integer array: row 0 holds each edge's destination, row 1 its source. The in-degree of a
  node is the number of edges arriving at it (a scatter-add of ones); its reciprocal is taken where the degree is positive
  and is zero elsewhere. The neighbour mean of a feature array gathers the source node's row for every edge (a negative
  source index is first moved up by the number of nodes), adds the gathered rows into their destinations' rows (a
  scatter-add into zeros) and scales each row by the reciprocal in-degree. Both programs apply exactly this chain of host
  operations, to the input features and then to the hidden features; it is named here once so that neither proof has to
  open it. The network: a step with a maximum against zero, then a step without.
-/
import proofs.«174361_j71854802862598_1_alg».proof.Proof.Gen.KernelIdeal
import proofs.«174361_j71854802862598_1_alg».proof.Proof.SageLaw

noncomputable section

namespace Cert.KernelIdeal.Aggregate

open Cert.KernelIdeal Cert.KernelIdeal.Facts₀ Idealize.ShloMosaic

/-! ## The shared chain, at any float instance -/

section Chain

variable {F : FTy → Type} [FloatOps F]

abbrev Edges (F : FTy → Type) : Type := (⟨S2x1000000, .i32⟩ : BufTy).Contents (Elt F)
abbrev Feats (F : FTy → Type) : Type := (⟨S100000x128, .f32⟩ : BufTy).Contents (Elt F)
abbrev EdgeIdx (F : FTy → Type) : Type := (⟨S1000000, .i32⟩ : BufTy).Contents (Elt F)
abbrev NodeVec (F : FTy → Type) : Type := (⟨S100000, .f32⟩ : BufTy).Contents (Elt F)
abbrev Weights (F : FTy → Type) : Type := (⟨S256x128, .f32⟩ : BufTy).Contents (Elt F)
abbrev Bias (F : FTy → Type) : Type := (⟨S128, .f32⟩ : BufTy).Contents (Elt F)

/-- Each edge's destination node, and each edge's source node. -/
def dests (e : Edges F) : EdgeIdx F :=
  shapeCast _ (extractStridedSlice S1x1000000 ![0, 0] e slices_S2x1000000_S1x1000000_0_0) shapeCasts_S1x1000000_S1000000
def sources (e : Edges F) : EdgeIdx F :=
  shapeCast _ (extractStridedSlice S1x1000000 ![1, 0] e slices_S2x1000000_S1x1000000_1_0) shapeCasts_S1x1000000_S1000000

/-- Each node's in-degree: ones added into zeros at the edges' destinations. -/
def degree (r : EdgeIdx F) : NodeVec F :=
  Host.scatterAdd (F := F) scatter_S100000_S1000000x1_S1000000_n_0_0_1 (broadcastInDim S100000 ![] bcast_S_S100000 (constant (F := F) S_ .f32 0x00000000#32)) (broadcastInDim S1000000x1 ![0] bcast_S1000000_S1000000x1_0 r) (broadcastInDim S1000000 ![] bcast_S_S1000000 (constant (F := F) S_ .f32 0x3F800000#32))

/-- The reciprocal in-degree where the degree is positive (one over the larger of the degree and one), zero elsewhere. -/
def invDegree (r : EdgeIdx F) : NodeVec F :=
  select (cmpf (F := F) .ogt (degree r) (broadcastInDim S100000 ![] bcast_S_S100000 (constant (F := F) S_ .f32 0x00000000#32))) (Host.divf (F := F) (broadcastInDim S100000 ![] bcast_S_S100000 (constant (F := F) S_ .f32 0x3F800000#32)) (maximumf (degree r) (broadcastInDim S100000 ![] bcast_S_S100000 (constant (F := F) S_ .f32 0x3F800000#32)))) (broadcastInDim S100000 ![] bcast_S_S100000 (id (constant (F := F) S_ .f32 0x00000000#32)))

/-- The neighbour mean from the destinations `r`, the sources `s` and the reciprocal degrees `v`. -/
def meanOver (r s : EdgeIdx F) (v : NodeVec F) (f : Feats F) : Feats F :=
  mulf (Host.scatterAdd (F := F) scatter_S100000x128_S1000000x1_S1000000x128_1_0_0_1 (broadcastInDim S100000x128 ![] bcast_S_S100000x128 (constant (F := F) S_ .f32 0x00000000#32)) (broadcastInDim S1000000x1 ![0] bcast_S1000000_S1000000x1_0 r) (Host.gather gather_S100000x128_S1000000x1_S1000000x128_1_0_n_n_0_1_1128 f (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) (broadcastInDim S100000x128 ![0, 1] bcast_S100000x1_S100000x128_0_1 (broadcastInDim S100000x1 ![0] bcast_S100000_S100000x1_0 v))

/-- The neighbour mean of `f` over the edge list `e`. -/
def neighbourMean (e : Edges F) (f : Feats F) : Feats F := meanOver (dests e) (sources e) (invDegree (dests e)) f

end Chain

/-! ## The network, over the extended reals -/

/-- The hidden features: the first step, with the maximum against zero. -/
def hidden (x : Feats Ideal) (e : Edges Ideal) (W1 : Weights Ideal) (b1 : Bias Ideal) : Feats Ideal :=
  Cert.Sage.stepMax (Ideal.ofBits .f32 0x00000000#32) x (neighbourMean e x) (Cert.Sage.upper W1) (Cert.Sage.lower W1) b1

/-- The network's result: the second step, of the hidden features and their neighbour mean. -/
def network (x : Feats Ideal) (e : Edges Ideal) (W1 : Weights Ideal) (b1 : Bias Ideal) (W2 : Weights Ideal) (b2 : Bias Ideal) : Feats Ideal :=
  Cert.Sage.step (hidden x e W1 b1) (neighbourMean e (hidden x e W1 b1)) (Cert.Sage.upper W2) (Cert.Sage.lower W2) b2

end Cert.KernelIdeal.Aggregate

end
-- ==== Proof.RegionValue.lean ====
/-
  What each of the two kernel regions leaves in its output array, as ONE function of the arrays the region finds.

  Both regions run the same body over a grid of 20 points. At point `t` the body loads rows 5000·t … 5000·t + 4999 of a
  feature array and of a neighbour-mean array (each 100000 × 128), the two 128 × 128 halves of a weight matrix and a bias
  row (the same at every point), and stores, for the block's row `p` and column `q`,

      ∑ k < 128, feat[p,k] · wx[k,q]  +  ∑ k < 128, mean[p,k] · wa[k,q]  +  bias[q]

  (region 0: the maximum of that and zero). Over the extended reals the roundings to bf16 before the two products are the
  identity and a product into a zero accumulator is the plain sum, so block `t` of the output is rows 5000·t … of
  `Cert.Sage.step` (region 0: `Cert.Sage.stepMax`) of the five arrays; the 20 blocks tile the 100000 rows, hence the
  whole output array is that function. Everything is stated for ARBITRARY region-entry contents `V`.
-/
import proofs.«174361_j71854802862598_1_alg».proof.Proof.Gen.KernelIdeal.Frame
import proofs.«174361_j71854802862598_1_alg».proof.Proof.SageLaw
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic at an index of the block -/

theorem zero_offsets2 : (![0, 0] : Fin 2 → Nat) = fun _ => 0 := funext fun a => by fin_cases a <;> rfl
theorem zero_offsets1 : (![0] : Fin 1 → Nat) = fun _ => 0 := funext fun a => by fin_cases a <;> rfl

theorem dot_lhs0 (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_lhs1 (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
theorem dot_rhs0 (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
theorem dot_rhs1 (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 block into a zero accumulator, at row `p`, column `q`: the 128-term sum. -/
theorem product_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot_lhs0 _ _
    | ⟨1, _⟩ => exact (dot_lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_rhs0 _ _).trans hk
    | ⟨1, _⟩ => exact dot_rhs1 _ _)
  rw [el, er]

/-- The bias row, cast to 1 × 128 and broadcast down the block's rows, at row `p`, column `q`: the bias at `q`. -/
theorem bias_at (x4 : Vec Ideal S128 .f32) (p : Fin 5000) (q : Fin 128) :
    broadcastTo S5000x128 (shapeCast S1x128 x4 shapeCasts_S128_S1x128) broadcasts_S1x128_S5000x128 (ix2 p q) = x4 (ix1 q) :=
  (broadcastTo_1b_ab_apply _ broadcasts_S1x128_S5000x128 p q).trans (shapeCast_a_1a_apply x4 shapeCasts_S128_S1x128 0 q)

/-- Region 0's stored value at row `p`, column `q` of the block. -/
theorem stored0_at (x0 x1 : Vec Ideal S5000x128 .f32) (x2 x3 : Vec Ideal S128x128 .f32) (x4 : Vec Ideal S128 .f32) (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix1 q)) (Ideal.ofBits .f32 0x00000000#32) := by
  unfold k0_pay1
  rw [maximumf_apply, addf_apply, addf_apply, product_at, product_at, bias_at]
  simp only [shapeCast_self]
  rfl

/-- Region 1's stored value at row `p`, column `q` of the block. -/
theorem stored1_at (x0 x1 : Vec Ideal S5000x128 .f32) (x2 x3 : Vec Ideal S128x128 .f32) (x4 : Vec Ideal S128 .f32) (p : Fin 5000) (q : Fin 128) :
    k1_pay1 (F := Ideal) x0 x1 x2 x3 x4 (ix2 p q)
      = (∑ k : Fin 128, x0 (ix2 p k) * x2 (ix2 k q) + ∑ k : Fin 128, x1 (ix2 p k) * x3 (ix2 k q)) + x4 (ix1 q) := by
  unfold k1_pay1
  rw [addf_apply, addf_apply, product_at, product_at, bias_at]
  simp only [shapeCast_self]
  rfl

/-! # The two regions, at arbitrary region-entry contents -/

variable (V : (c : Dev nD) → (b : Ref sig .tc) → Buf (Elt Ideal) ((c : Thread nD τ).loc b))

/-! ## Region 0 -/

/-- The printed index maps over the grid: at point `t` the two row-blocked inputs and the output are at block (t, 0), the
    weight halves and the bias at block 0. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p`, column `k` of the features' block at point `t` is row `5000·t + p`, column `k` of the array. -/
theorem feat_read0 (c : Dev nD) (t : Fin cfg0.N) (p : Fin 5000) (k : Fin 128) (r : Fin 100000) (hr : r.val = t.val * 5000 + p.val) :
    iblk0 V c 0 t (ix2 p k) = (V c main_arg0 : S100000x128.Idx → EReal) (ix2 r k) := by
  obtain ⟨e00, e01, e10, e11, e20, e21, e30, e31, e40, e50, e51⟩ := index_facts0 t
  show (V c main_arg0 : S100000x128.Idx → EReal) (((cfg0.win 0).blk t).view.emb (ix2 p k)) = _
  refine congrArg (V c main_arg0 : S100000x128.Idx → EReal) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for the neighbour means' block. -/
theorem mean_read0 (c : Dev nD) (t : Fin cfg0.N) (p : Fin 5000) (k : Fin 128) (r : Fin 100000) (hr : r.val = t.val * 5000 + p.val) :
    iblk0 V c 1 t (ix2 p k) = (V c main_v27 : S100000x128.Idx → EReal) (ix2 r k) := by
  obtain ⟨e00, e01, e10, e11, e20, e21, e30, e31, e40, e50, e51⟩ := index_facts0 t
  show (V c main_v27 : S100000x128.Idx → EReal) (((cfg0.win 1).blk t).view.emb (ix2 p k)) = _
  refine congrArg (V c main_v27 : S100000x128.Idx → EReal) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The weight halves' one block is the whole array, at every point; so is the bias's. -/
theorem wx_read0 (c : Dev nD) (t : Fin cfg0.N) (k q : Fin 128) :
    iblk0 V c 2 t (ix2 k q) = (V c main_v28 : S128x128.Idx → EReal) (ix2 k q) := by
  obtain ⟨e00, e01, e10, e11, e20, e21, e30, e31, e40, e50, e51⟩ := index_facts0 t
  show (V c main_v28 : S128x128.Idx → EReal) (((cfg0.win 2).blk t).view.emb (ix2 k q)) = _
  refine congrArg (V c main_v28 : S128x128.Idx → EReal) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem wa_read0 (c : Dev nD) (t : Fin cfg0.N) (k q : Fin 128) :
    iblk0 V c 3 t (ix2 k q) = (V c main_v29 : S128x128.Idx → EReal) (ix2 k q) := by
  obtain ⟨e00, e01, e10, e11, e20, e21, e30, e31, e40, e50, e51⟩ := index_facts0 t
  show (V c main_v29 : S128x128.Idx → EReal) (((cfg0.win 3).blk t).view.emb (ix2 k q)) = _
  refine congrArg (V c main_v29 : S128x128.Idx → EReal) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem bias_read0 (c : Dev nD) (t : Fin cfg0.N) (q : Fin 128) :
    iblk0 V c 4 t (ix1 q) = (V c main_arg3 : S128.Idx → EReal) (ix1 q) := by
  obtain ⟨e00, e01, e10, e11, e20, e21, e30, e31, e40, e50, e51⟩ := index_facts0 t
  show (V c main_arg3 : S128.Idx → EReal) (((cfg0.win 4).blk t).view.emb (ix1 q)) = _
  refine congrArg (V c main_arg3 : S128.Idx → EReal) (funext fun a => Fin.ext ?_)
  match a with
  | ⟨0, _⟩ => show win0_4.index t (0 : Fin 1) * 128 + 1 * q.val = q.val; omega

/-- The stored value at a general index of the block. -/
theorem stored0_idx (x0 x1 : Vec Ideal S5000x128 .f32) (x2 x3 : Vec Ideal S128x128 .f32) (x4 : Vec Ideal S128 .f32) (j : S5000x128.Idx) :
    k0_pay1 (F := Ideal) x0 x1 x2 x3 x4 j = max ((∑ k : Fin 128, x0 (ix2 (j 0) k) * x2 (ix2 k (j 1)) + ∑ k : Fin 128, x1 (ix2 (j 0) k) * x3 (ix2 k (j 1))) + x4 (ix1 (j 1))) (Ideal.ofBits .f32 0x00000000#32) := by
  obtain ⟨p, q, rfl⟩ : ∃ (p : Fin 5000) (q : Fin 128), j = ix2 p q := ⟨j 0, j 1, eq_ix2 j⟩
  exact stored0_at x0 x1 x2 x3 x4 p q

/-- WHAT POINT `t` WRITES BACK is block `t` of the step's array of the arrays the region finds. -/
theorem flushed0_eq (c : Dev nD) (t : Fin cfg0.N) :
    (dat0 V c).flushed 5 t = ((cfg0.win 5).blk t).view.read (Elt Ideal) (Cert.Sage.stepMax (Ideal.ofBits .f32 0x00000000#32) (V c main_arg0) (V c main_v27) (V c main_v28) (V c main_v29) (V c main_arg3)) := by
  show (cfg0.win 5).cut (grid0.coords t) ((dat0 V c).after 5 t) = _
  rw [after0_5]
  unfold out0_5
  rw [View.canon_unit_zero zero_offsets2]
  simp only [View.ld_unit_zero (S := S5000x128) zero_offsets2, View.ld_unit_zero (S := S128x128) zero_offsets2, View.ld_unit_zero (S := S128) zero_offsets1]
  obtain ⟨e00, e01, e10, e11, e20, e21, e30, e31, e40, e50, e51⟩ := index_facts0 t
  funext j
  have hrow : ((((cfg0.win 5).blk t).view.emb j) 0).val = t.val * 5000 + (j 0).val := by
    show win0_5.index t (0 : Fin 2) * 5000 + 1 * (j 0).val = _; omega
  have hcol : ((((cfg0.win 5).blk t).view.emb j) 1).val = (j 1).val := by
    show win0_5.index t (1 : Fin 2) * 128 + 1 * (j 1).val = _; omega
  have hq : ((((cfg0.win 5).blk t).view.emb j) 1 : Fin 128) = (j 1 : Fin 128) := Fin.ext hcol
  refine (stored0_idx (iblk0 V c 0 t) (iblk0 V c 1 t) (iblk0 V c 2 t) (iblk0 V c 3 t) (iblk0 V c 4 t) j).trans ?_
  show _ = max (Cert.Sage.stepAt (V c main_arg0) (V c main_v27) (V c main_v28) (V c main_v29) (V c main_arg3) ((((cfg0.win 5).blk t).view.emb j) 0) ((((cfg0.win 5).blk t).view.emb j) 1)) (Ideal.ofBits .f32 0x00000000#32)
  unfold Cert.Sage.stepAt
  rw [hq]
  refine congrArg₂ max (congrArg₂ (· + ·) (congrArg₂ (· + ·) (Finset.sum_congr rfl fun k _ => ?_) (Finset.sum_congr rfl fun k _ => ?_)) ?_) rfl
  · exact congrArg₂ (· * ·) (feat_read0 V c t (j 0) k _ hrow) (wx_read0 V c t k (j 1))
  · exact congrArg₂ (· * ·) (mean_read0 V c t (j 0) k _ hrow) (wa_read0 V c t k (j 1))
  · exact bias_read0 V c t (j 1)

/-- Every row of the array is in the block of the point `row / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e00, e01, e10, e11, e20, e21, e30, e31, e40, e50, e51⟩ := index_facts0 ⟨(i 0).val / 5000, ht⟩
  refine ⟨⟨(i 0).val / 5000, ht⟩, flush0_5 _, ?_⟩
  show i ∈ ((View.whole main_v30).slice (win0_5.rect ⟨(i 0).val / 5000, ht⟩)).set
  rw [View.set_slice_whole, Rect.mem_set_unit]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- THE OUTPUT ARRAY after the region: the step's array of the arrays the region finds. -/
theorem final0 (c : Dev nD) : (dat0 V c).arrAt 5 cfg0.N = (Cert.Sage.stepMax (Ideal.ofBits .f32 0x00000000#32) (V c main_arg0) (V c main_v27) (V c main_v28) (V c main_v29) (V c main_arg3)) :=
  (dat0 V c).arrAt_eq_of_cover 5 _ (fun t _ => flushed0_eq V c t) (cover0)

/-! ## Region 1 -/

/-- The printed index maps over the grid: at point `t` the two row-blocked inputs and the output are at block (t, 0), the
    weight halves and the bias at block 0. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p`, column `k` of the features' block at point `t` is row `5000·t + p`, column `k` of the array. -/
theorem feat_read1 (c : Dev nD) (t : Fin cfg1.N) (p : Fin 5000) (k : Fin 128) (r : Fin 100000) (hr : r.val = t.val * 5000 + p.val) :
    iblk1 V c 0 t (ix2 p k) = (V c main_v30 : S100000x128.Idx → EReal) (ix2 r k) := by
  obtain ⟨e00, e01, e10, e11, e20, e21, e30, e31, e40, e50, e51⟩ := index_facts1 t
  show (V c main_v30 : S100000x128.Idx → EReal) (((cfg1.win 0).blk t).view.emb (ix2 p k)) = _
  refine congrArg (V c main_v30 : S100000x128.Idx → EReal) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for the neighbour means' block. -/
theorem mean_read1 (c : Dev nD) (t : Fin cfg1.N) (p : Fin 5000) (k : Fin 128) (r : Fin 100000) (hr : r.val = t.val * 5000 + p.val) :
    iblk1 V c 1 t (ix2 p k) = (V c main_v43 : S100000x128.Idx → EReal) (ix2 r k) := by
  obtain ⟨e00, e01, e10, e11, e20, e21, e30, e31, e40, e50, e51⟩ := index_facts1 t
  show (V c main_v43 : S100000x128.Idx → EReal) (((cfg1.win 1).blk t).view.emb (ix2 p k)) = _
  refine congrArg (V c main_v43 : S100000x128.Idx → EReal) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The weight halves' one block is the whole array, at every point; so is the bias's. -/
theorem wx_read1 (c : Dev nD) (t : Fin cfg1.N) (k q : Fin 128) :
    iblk1 V c 2 t (ix2 k q) = (V c main_v44 : S128x128.Idx → EReal) (ix2 k q) := by
  obtain ⟨e00, e01, e10, e11, e20, e21, e30, e31, e40, e50, e51⟩ := index_facts1 t
  show (V c main_v44 : S128x128.Idx → EReal) (((cfg1.win 2).blk t).view.emb (ix2 k q)) = _
  refine congrArg (V c main_v44 : S128x128.Idx → EReal) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem wa_read1 (c : Dev nD) (t : Fin cfg1.N) (k q : Fin 128) :
    iblk1 V c 3 t (ix2 k q) = (V c main_v45 : S128x128.Idx → EReal) (ix2 k q) := by
  obtain ⟨e00, e01, e10, e11, e20, e21, e30, e31, e40, e50, e51⟩ := index_facts1 t
  show (V c main_v45 : S128x128.Idx → EReal) (((cfg1.win 3).blk t).view.emb (ix2 k q)) = _
  refine congrArg (V c main_v45 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem bias_read1 (c : Dev nD) (t : Fin cfg1.N) (q : Fin 128) :
    iblk1 V c 4 t (ix1 q) = (V c main_arg5 : S128.Idx → EReal) (ix1 q) := by
  obtain ⟨e00, e01, e10, e11, e20, e21, e30, e31, e40, e50, e51⟩ := index_facts1 t
  show (V c main_arg5 : S128.Idx → EReal) (((cfg1.win 4).blk t).view.emb (ix1 q)) = _
  refine congrArg (V c main_arg5 : S128.Idx → EReal) (funext fun a => Fin.ext ?_)
  match a with
  | ⟨0, _⟩ => show win1_4.index t (0 : Fin 1) * 128 + 1 * q.val = q.val; omega

/-- The stored value at a general index of the block. -/
theorem stored1_idx (x0 x1 : Vec Ideal S5000x128 .f32) (x2 x3 : Vec Ideal S128x128 .f32) (x4 : Vec Ideal S128 .f32) (j : S5000x128.Idx) :
    k1_pay1 (F := Ideal) x0 x1 x2 x3 x4 j = (∑ k : Fin 128, x0 (ix2 (j 0) k) * x2 (ix2 k (j 1)) + ∑ k : Fin 128, x1 (ix2 (j 0) k) * x3 (ix2 k (j 1))) + x4 (ix1 (j 1)) := by
  obtain ⟨p, q, rfl⟩ : ∃ (p : Fin 5000) (q : Fin 128), j = ix2 p q := ⟨j 0, j 1, eq_ix2 j⟩
  exact stored1_at x0 x1 x2 x3 x4 p q

/-- WHAT POINT `t` WRITES BACK is block `t` of the step's array of the arrays the region finds. -/
theorem flushed1_eq (c : Dev nD) (t : Fin cfg1.N) :
    (dat1 V c).flushed 5 t = ((cfg1.win 5).blk t).view.read (Elt Ideal) (Cert.Sage.step (V c main_v30) (V c main_v43) (V c main_v44) (V c main_v45) (V c main_arg5)) := by
  show (cfg1.win 5).cut (grid1.coords t) ((dat1 V c).after 5 t) = _
  rw [after1_5]
  unfold out1_5
  rw [View.canon_unit_zero zero_offsets2]
  simp only [View.ld_unit_zero (S := S5000x128) zero_offsets2, View.ld_unit_zero (S := S128x128) zero_offsets2, View.ld_unit_zero (S := S128) zero_offsets1]
  obtain ⟨e00, e01, e10, e11, e20, e21, e30, e31, e40, e50, e51⟩ := index_facts1 t
  funext j
  have hrow : ((((cfg1.win 5).blk t).view.emb j) 0).val = t.val * 5000 + (j 0).val := by
    show win1_5.index t (0 : Fin 2) * 5000 + 1 * (j 0).val = _; omega
  have hcol : ((((cfg1.win 5).blk t).view.emb j) 1).val = (j 1).val := by
    show win1_5.index t (1 : Fin 2) * 128 + 1 * (j 1).val = _; omega
  have hq : ((((cfg1.win 5).blk t).view.emb j) 1 : Fin 128) = (j 1 : Fin 128) := Fin.ext hcol
  refine (stored1_idx (iblk1 V c 0 t) (iblk1 V c 1 t) (iblk1 V c 2 t) (iblk1 V c 3 t) (iblk1 V c 4 t) j).trans ?_
  show _ = Cert.Sage.stepAt (V c main_v30) (V c main_v43) (V c main_v44) (V c main_v45) (V c main_arg5) ((((cfg1.win 5).blk t).view.emb j) 0) ((((cfg1.win 5).blk t).view.emb j) 1)
  unfold Cert.Sage.stepAt
  rw [hq]
  refine congrArg₂ (· + ·) (congrArg₂ (· + ·) (Finset.sum_congr rfl fun k _ => ?_) (Finset.sum_congr rfl fun k _ => ?_)) ?_
  · exact congrArg₂ (· * ·) (feat_read1 V c t (j 0) k _ hrow) (wx_read1 V c t k (j 1))
  · exact congrArg₂ (· * ·) (mean_read1 V c t (j 0) k _ hrow) (wa_read1 V c t k (j 1))
  · exact bias_read1 V c t (j 1)

/-- Every row of the array is in the block of the point `row / 5000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e00, e01, e10, e11, e20, e21, e30, e31, e40, e50, e51⟩ := index_facts1 ⟨(i 0).val / 5000, ht⟩
  refine ⟨⟨(i 0).val / 5000, ht⟩, flush1_5 _, ?_⟩
  show i ∈ ((View.whole main_v46).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- THE OUTPUT ARRAY after the region: the step's array of the arrays the region finds. -/
theorem final1 (c : Dev nD) : (dat1 V c).arrAt 5 cfg1.N = (Cert.Sage.step (V c main_v30) (V c main_v43) (V c main_v44) (V c main_v45) (V c main_arg5)) :=
  (dat1 V c).arrAt_eq_of_cover 5 _ (fun t _ => flushed1_eq V c t) (cover1)

end Cert.KernelIdeal.RegionValue

end
-- ==== Proof.HostReads.lean ====
/-
  What the two regions find in their arrays, as functions of the launch memory.

  Region 0 is entered after the host operations that cut the edge list into destinations and sources, count the
  in-degrees, form the neighbour mean of the input features and cut the first weight matrix into its two halves; its
  five input arrays are therefore the input features, their neighbour mean, the two halves and the first bias. Region 1
  is entered after the same neighbour-mean chain applied to region 0's OUTPUT array and the cut of the second weight
  matrix. No host operation and no region overwrites what an earlier one computed, so every buffer read here is its
  operation's result applied to the buffers below it, down to the launch memory.
-/
import proofs.«174361_j71854802862598_1_alg».proof.Proof.Gen.KernelIdeal.Frame
import proofs.«174361_j71854802862598_1_alg».proof.Proof.Aggregate
import Idealize.ShloMosaic.Lib.StableHlo.Run
import Idealize.ShloMosaic.Lib.ValueIdx
import Idealize.ShloMosaic.Lib.ValueLayout

set_option maxRecDepth 16384

noncomputable section

namespace Cert.KernelIdeal.HostReads

open Cert.KernelIdeal Cert.KernelIdeal.Gen Cert.KernelIdeal.Aggregate
open Idealize.ShloMosaic Idealize.ShloMosaic.TcCoe Idealize.SL.Sem Idealize.ShloMosaic.StableHlo Idealize.ShloMosaic.ValueIdx

/-! ## The halves of a weight matrix are its two row slices -/

theorem slice_upper (W : Weights Ideal) : extractStridedSlice S128x128 ![0, 0] W slices_S256x128_S128x128_0_0 = Cert.Sage.upper W := by
  funext j
  obtain ⟨k, q, rfl⟩ : ∃ (k q : Fin 128), j = ix2 k q := ⟨j 0, j 1, eq_ix2 j⟩
  exact slice2_axis0_apply 0 W slices_S256x128_S128x128_0_0 k q (Cert.Sage.lo k) (by show k.val = 0 + k.val; omega)

theorem slice_lower (W : Weights Ideal) : extractStridedSlice S128x128 ![128, 0] W slices_S256x128_S128x128_128_0 = Cert.Sage.lower W := by
  funext j
  obtain ⟨k, q, rfl⟩ : ∃ (k q : Fin 128), j = ix2 k q := ⟨j 0, j 1, eq_ix2 j⟩
  exact slice2_axis0_apply 128 W slices_S256x128_S128x128_128_0 k q (Cert.Sage.hi k) rfl

section AnyInstance

variable {F : FTy → Type} [FloatOps F]
variable (m : (ℓ : Loc nD τ sig) → Buf (Elt F) ℓ) (ρ : Dev nD → PrngReg)

/-! ## Region 0's entry -/

theorem entry0_feats (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl

theorem entry0_bias (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl

theorem entry0_weights2 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl

theorem entry0_bias2 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl

theorem entry0_dests (c : Dev nD) : W3 m ρ c (Proc.devRef .tc main_v1) = dests (m ((c.tc : Thread nD τ).loc main_arg1)) := by
  show StableHlo.after hostOps0_2 (StableHlo.after hostOps0_1 (StableHlo.after hostOps0 (W0 m ρ c))) (Proc.devRef .tc main_v1) = _
  after_results_simp <;> rfl

theorem entry0_sources (c : Dev nD) : W3 m ρ c (Proc.devRef .tc main_v3) = sources (m ((c.tc : Thread nD τ).loc main_arg1)) := by
  show StableHlo.after hostOps0_2 (StableHlo.after hostOps0_1 (StableHlo.after hostOps0 (W0 m ρ c))) (Proc.devRef .tc main_v3) = _
  after_results_simp <;> rfl

theorem entry0_invDegree (c : Dev nD) : W3 m ρ c (Proc.devRef .tc main_v14) = invDegree (dests (m ((c.tc : Thread nD τ).loc main_arg1))) := by
  show StableHlo.after hostOps0_2 (StableHlo.after hostOps0_1 (StableHlo.after hostOps0 (W0 m ρ c))) (Proc.devRef .tc main_v14) = _
  after_results_simp <;> rfl

theorem entry0_mean (c : Dev nD) : W3 m ρ c (Proc.devRef .tc main_v27)
    = neighbourMean (m ((c.tc : Thread nD τ).loc main_arg1)) (m ((c.tc : Thread nD τ).loc main_arg0)) := by
  show StableHlo.after hostOps0_2 (StableHlo.after hostOps0_1 (StableHlo.after hostOps0 (W0 m ρ c))) (Proc.devRef .tc main_v27) = _
  after_results_simp <;> rfl

theorem entry0_upper_slice (c : Dev nD) : W3 m ρ c (Proc.devRef .tc main_v28)
    = extractStridedSlice S128x128 ![0, 0] (m ((c.tc : Thread nD τ).loc main_arg2)) slices_S256x128_S128x128_0_0 := by
  show StableHlo.after hostOps0_2 (StableHlo.after hostOps0_1 (StableHlo.after hostOps0 (W0 m ρ c))) (Proc.devRef .tc main_v28) = _
  after_results_simp <;> rfl

theorem entry0_lower_slice (c : Dev nD) : W3 m ρ c (Proc.devRef .tc main_v29)
    = extractStridedSlice S128x128 ![128, 0] (m ((c.tc : Thread nD τ).loc main_arg2)) slices_S256x128_S128x128_128_0 := by
  show StableHlo.after hostOps0_2 (StableHlo.after hostOps0_1 (StableHlo.after hostOps0 (W0 m ρ c))) (Proc.devRef .tc main_v29) = _
  after_results_simp <;> rfl

/-! ## Region 1's entry, over region 0's exit contents -/

theorem entry1_feats (c : Dev nD) : W5 m ρ c (Proc.devRef .tc main_v30) = W4 m ρ c (Proc.devRef .tc main_v30) := by
  show StableHlo.after hostOps1 (W4 m ρ c) (Proc.devRef .tc main_v30) = _
  after_results_simp <;> rfl

theorem entry1_bias (c : Dev nD) : W5 m ρ c (Proc.devRef .tc main_arg5) = W4 m ρ c (Proc.devRef .tc main_arg5) := by
  show StableHlo.after hostOps1 (W4 m ρ c) (Proc.devRef .tc main_arg5) = _
  after_results_simp <;> rfl

theorem entry1_mean (c : Dev nD) : W5 m ρ c (Proc.devRef .tc main_v43)
    = meanOver (W4 m ρ c (Proc.devRef .tc main_v1)) (W4 m ρ c (Proc.devRef .tc main_v3)) (W4 m ρ c (Proc.devRef .tc main_v14)) (W4 m ρ c (Proc.devRef .tc main_v30)) := by
  show StableHlo.after hostOps1 (W4 m ρ c) (Proc.devRef .tc main_v43) = _
  after_results_simp <;> rfl

theorem entry1_upper_slice (c : Dev nD) : W5 m ρ c (Proc.devRef .tc main_v44)
    = extractStridedSlice S128x128 ![0, 0] (W4 m ρ c (Proc.devRef .tc main_arg4)) slices_S256x128_S128x128_0_0 := by
  show StableHlo.after hostOps1 (W4 m ρ c) (Proc.devRef .tc main_v44) = _
  after_results_simp <;> rfl

theorem entry1_lower_slice (c : Dev nD) : W5 m ρ c (Proc.devRef .tc main_v45)
    = extractStridedSlice S128x128 ![128, 0] (W4 m ρ c (Proc.devRef .tc main_arg4)) slices_S256x128_S128x128_128_0 := by
  show StableHlo.after hostOps1 (W4 m ρ c) (Proc.devRef .tc main_v45) = _
  after_results_simp <;> rfl

end AnyInstance

/-! ## The weight halves, over the extended reals -/

section AtIdeal

variable (m : (ℓ : Loc nD τ sig) → Buf (Elt Ideal) ℓ) (ρ : Dev nD → PrngReg)

theorem entry0_upper (c : Dev nD) : W3 m ρ c (Proc.devRef .tc main_v28) = Cert.Sage.upper (m ((c.tc : Thread nD τ).loc main_arg2)) :=
  (entry0_upper_slice m ρ c).trans (slice_upper _)
theorem entry0_lower (c : Dev nD) : W3 m ρ c (Proc.devRef .tc main_v29) = Cert.Sage.lower (m ((c.tc : Thread nD τ).loc main_arg2)) :=
  (entry0_lower_slice m ρ c).trans (slice_lower _)
theorem entry1_upper (c : Dev nD) : W5 m ρ c (Proc.devRef .tc main_v44) = Cert.Sage.upper (W4 m ρ c (Proc.devRef .tc main_arg4)) :=
  (entry1_upper_slice m ρ c).trans (slice_upper _)
theorem entry1_lower (c : Dev nD) : W5 m ρ c (Proc.devRef .tc main_v45) = Cert.Sage.lower (W4 m ρ c (Proc.devRef .tc main_arg4)) :=
  (entry1_lower_slice m ρ c).trans (slice_lower _)

end AtIdeal

end Cert.KernelIdeal.HostReads

end
-- ==== Proof.KernelRun.lean ====
/-
  The idealized kernel program's run with its RESULT array named.

  The program is six segments: three stretches of host operations, region 0, a stretch of host operations, region 1. The
  generated frame module states the buffer contents at every segment boundary as a fold from the launch memory — the last
  one, `W6`, is what every unscoped buffer holds when the program returns — and proves every segment's triple; its frame
  theorem reads only the six argument arrays off `W6`. Here the same chain of segments is read once more at the result
  buffer as well: every weakly fair execution terminates, nothing faulting, with the result array at `W6` and the
  arguments as launched.
-/
import proofs.«174361_j71854802862598_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.KernelValue.lean ====
/-
  The idealized kernel program's result array, as a function of the launch memory: the network.

  Reading the segment boundaries backwards: the result buffer at the return is region 1's output array, which is the step
  of the arrays region 1 finds; those are region 0's output array (the hidden features: the step with maximum of the arrays
  region 0 finds, which are the inputs, their neighbour mean, the first weights' halves and the first bias), its
  neighbour mean, the second weights' halves and the second bias.
-/
import proofs.«174361_j71854802862598_1_alg».proof.Proof.Gen.KernelIdeal.Frame
import proofs.«174361_j71854802862598_1_alg».proof.Proof.RegionValue
import proofs.«174361_j71854802862598_1_alg».proof.Proof.HostReads
import proofs.«174361_j71854802862598_1_alg».proof.Proof.Aggregate

set_option maxRecDepth 16384

noncomputable section

namespace Cert.KernelIdeal.KernelValue

open Cert.KernelIdeal Cert.KernelIdeal.Gen Cert.KernelIdeal.Aggregate Cert.KernelIdeal.HostReads
open Idealize.ShloMosaic Idealize.ShloMosaic.TcCoe Idealize.SL.Sem

variable (m : (ℓ : Loc nD τ sig) → Buf (Elt Ideal) ℓ) (ρ : Dev nD → PrngReg)

/-- Region 0 leaves the hidden features in its output array. -/
theorem exit0_hidden (c : Dev nD) : W4 m ρ c (Proc.devRef .tc main_v30)
    = hidden (m ((c.tc : Thread nD τ).loc main_arg0)) (m ((c.tc : Thread nD τ).loc main_arg1)) (m ((c.tc : Thread nD τ).loc main_arg2)) (m ((c.tc : Thread nD τ).loc main_arg3)) := by
  refine (W4_arr m ρ c 5).trans ?_
  refine (Cert.KernelIdeal.RegionValue.final0 (V3 m ρ) c).trans ?_
  show Cert.Sage.stepMax _ (W3 m ρ c (Proc.devRef .tc main_arg0)) (W3 m ρ c (Proc.devRef .tc main_v27)) (W3 m ρ c (Proc.devRef .tc main_v28)) (W3 m ρ c (Proc.devRef .tc main_v29)) (W3 m ρ c (Proc.devRef .tc main_arg3)) = _
  rw [entry0_feats, entry0_mean, entry0_upper, entry0_lower, entry0_bias]
  rfl

/-- The result buffer at the return holds the network's result. -/
theorem result_eq (c : Dev nD) : W6 m ρ c (Proc.devRef .tc main_v46)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 5).trans ?_
  refine (Cert.KernelIdeal.RegionValue.final1 (V5 m ρ) c).trans ?_
  show Cert.Sage.step (W5 m ρ c (Proc.devRef .tc main_v30)) (W5 m ρ c (Proc.devRef .tc main_v43)) (W5 m ρ c (Proc.devRef .tc main_v44)) (W5 m ρ c (Proc.devRef .tc main_v45)) (W5 m ρ c (Proc.devRef .tc main_arg5)) = _
  rw [entry1_feats, entry1_mean, entry1_upper, entry1_lower, entry1_bias,
    W4_of_ne m ρ c main_v1 (by decide), W4_of_ne m ρ c main_v3 (by decide), W4_of_ne m ρ c main_v14 (by decide),
    W4_of_ne m ρ c main_arg4 (by decide), W4_of_ne m ρ c main_arg5 (by decide),
    entry0_dests, entry0_sources, entry0_invDegree, entry0_weights2, entry0_bias2, exit0_hidden]
  rfl

end Cert.KernelIdeal.KernelValue

end
-- ==== Proof.RefValue.lean ====
/-
  The reference program's result, stage by stage, is the same network as the kernel program's.

  The reference forms the neighbour mean by the same chain of host operations; then, per layer, it JOINS the features and
  their neighbour mean along the feature axis into a 100000 × 256 array, takes one product with the whole 256 × 128 weight
  matrix, adds the bias row, and (first layer only) takes the maximum with zero. Read at row `r`, column `q`: the product is
  a sum over the 256 joined columns, whose first 128 are the features' row `r` and whose last 128 are the mean's row `r`;
  by `Cert.Sage.joined_row` that is the two 128-term sums with the upper and the lower half of the weights.
-/
import proofs.«174361_j71854802862598_1_alg».proof.Proof.RefReadP
import proofs.«174361_j71854802862598_1_alg».proof.Proof.Aggregate
import proofs.«174361_j71854802862598_1_alg».proof.Proof.SageLaw
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx
open Cert.KernelIdeal.Aggregate (neighbourMean network)

abbrev Edges : Type := (⟨S2x1000000, .i32⟩ : BufTy).Contents (Elt Ideal)
abbrev Feats : Type := (⟨S100000x128, .f32⟩ : BufTy).Contents (Elt Ideal)
abbrev Weights : Type := (⟨S256x128, .f32⟩ : BufTy).Contents (Elt Ideal)
abbrev Bias : Type := (⟨S128, .f32⟩ : BufTy).Contents (Elt Ideal)

/-! ## The joined array read at a column of its first, and of its second, half -/

theorem joined_first (f a : Feats) (r : Fin 100000) (k : Fin 128) (j : S100000x256.Idx)
    (hj0 : (j 0).val = r.val) (hj1 : (j 1).val = k.val) :
    concatenate S100000x256 1 [⟨S100000x128, f⟩, ⟨S100000x128, a⟩] concatenates_S100000x128_S100000x128_S100000x256_d1 j = f (ix2 r k) :=
  concatenate_apply_piece (t := S100000x256) 1 [⟨S100000x128, f⟩, ⟨S100000x128, a⟩] concatenates_S100000x128_S100000x128_S100000x256_d1 j 0 Nat.zero_lt_two S100000x128 f rfl rfl 0 rfl (ix2 r k)
    (fun b hb => by
      match b with
      | ⟨0, _⟩ => exact hj0.symm
      | ⟨1, _⟩ => exact absurd rfl hb)
    (by show 0 + k.val = (j 1).val; omega)

theorem joined_second (f a : Feats) (r : Fin 100000) (k : Fin 128) (j : S100000x256.Idx)
    (hj0 : (j 0).val = r.val) (hj1 : (j 1).val = 128 + k.val) :
    concatenate S100000x256 1 [⟨S100000x128, f⟩, ⟨S100000x128, a⟩] concatenates_S100000x128_S100000x128_S100000x256_d1 j = a (ix2 r k) :=
  concatenate_apply_piece (t := S100000x256) 1 [⟨S100000x128, f⟩, ⟨S100000x128, a⟩] concatenates_S100000x128_S100000x128_S100000x256_d1 j 1 Nat.one_lt_two S100000x128 a rfl rfl 128 rfl (ix2 r k)
    (fun b hb => by
      match b with
      | ⟨0, _⟩ => exact hj0.symm
      | ⟨1, _⟩ => exact absurd rfl hb)
    (by show 128 + k.val = (j 1).val; omega)

/-! ## The shared chain is one function -/

/-- The reference's neighbour mean of the input features is the named chain (the same operations, spelt over this
    program's own shape records). -/
theorem mean_input (x0 : Feats) (x1 : Edges) : val_main_v27 (F := Ideal) x0 x1 = neighbourMean x1 x0 := rfl

/-- So is its neighbour mean of the hidden features. -/
theorem mean_hidden (x0 : Feats) (x1 : Edges) (x2 : Weights) (x3 : Bias) :
    val_main_v46 (F := Ideal) x0 x1 x2 x3 = neighbourMean x1 (val_main_v33 (F := Ideal) x0 x1 x2 x3) := rfl

/-! ## The two layers -/

theorem bias_index (i : S100000x128.Idx) : idx_main_v30 (idx_main_v31 i) = ix1 (i 1) :=
  funext fun a => by match a with | ⟨0, _⟩ => rfl

theorem bias_index2 (i : S100000x128.Idx) : idx_main_v49 (idx_main_v50 i) = ix1 (i 1) :=
  funext fun a => by match a with | ⟨0, _⟩ => rfl

theorem weight_index (i : S100000x128.Idx) (k : Fin 256) : ridx_main_v29 i k = ix2 k (i 1) :=
  funext fun a => by match a with | ⟨0, _⟩ => rfl | ⟨1, _⟩ => rfl

theorem weight_index2 (i : S100000x128.Idx) (k : Fin 256) : ridx_main_v48 i k = ix2 k (i 1) :=
  funext fun a => by match a with | ⟨0, _⟩ => rfl | ⟨1, _⟩ => rfl

/-- The reference's hidden features are the network's. -/
theorem hidden_eq (x0 : Feats) (x1 : Edges) (x2 : Weights) (x3 : Bias) :
    val_main_v33 (F := Ideal) x0 x1 x2 x3 = Cert.KernelIdeal.Aggregate.hidden x0 x1 x2 x3 := by
  funext i
  rw [val_main_v33_apply, val_main_v32_apply, val_main_v29_apply, val_main_v31_apply, val_main_v30_apply,
    val_main_call1_v0_apply, val_main_call1_cst_apply, bias_index]
  simp only [weight_index]
  unfold Cert.KernelIdeal.Aggregate.hidden Cert.Sage.stepMax
  refine congrArg₂ max ?_ rfl
  refine Cert.Sage.joined_row x0 (neighbourMean x1 x0) x2 x3 (i 0) (i 1) (fun k => val_main_v28 (F := Ideal) x0 x1 (lidx_main_v29 i k)) (fun k => ?_) (fun k => ?_)
  · exact joined_first x0 (val_main_v27 (F := Ideal) x0 x1) (i 0) k _ rfl rfl
  · exact (joined_second x0 (val_main_v27 (F := Ideal) x0 x1) (i 0) k _ rfl rfl).trans (congrFun (mean_input x0 x1) _)

/-- The reference's result is the network's. -/
theorem result_eq (x0 : Feats) (x1 : Edges) (x2 : Weights) (x3 : Bias) (x4 : Weights) (x5 : Bias) :
    val_main_v51 (F := Ideal) x0 x1 x2 x3 x4 x5 = network x0 x1 x2 x3 x4 x5 := by
  funext i
  rw [val_main_v51_apply, val_main_v48_apply, val_main_v50_apply, val_main_v49_apply, bias_index2]
  simp only [weight_index2]
  unfold Cert.KernelIdeal.Aggregate.network Cert.Sage.step
  rw [← hidden_eq]
  refine Cert.Sage.joined_row (val_main_v33 (F := Ideal) x0 x1 x2 x3) (neighbourMean x1 (val_main_v33 (F := Ideal) x0 x1 x2 x3)) x4 x5 (i 0) (i 1) (fun k => val_main_v47 (F := Ideal) x0 x1 x2 x3 (lidx_main_v48 i k)) (fun k => ?_) (fun k => ?_)
  · exact joined_first (val_main_v33 (F := Ideal) x0 x1 x2 x3) (val_main_v46 (F := Ideal) x0 x1 x2 x3) (i 0) k _ rfl rfl
  · exact (joined_second (val_main_v33 (F := Ideal) x0 x1 x2 x3) (val_main_v46 (F := Ideal) x0 x1 x2 x3) (i 0) k _ rfl rfl).trans (congrFun (mean_hidden x0 x1 x2 x3) _)

end Cert.ReferenceIdeal.RefValue

end
-- ==== Proof.lean ====
/-
  Two GraphSAGE layers with mean aggregation: the kernel program against its jnp reference, over the extended reals.

  Both programs first form, by the same host operations, each node's reciprocal in-degree and the neighbour mean of the
  features (gather the source rows, add them into the destination rows, scale by the reciprocal degree). A layer is then

      out[r,q] = ∑ k < 128, h[r,k] · W[k,q]  +  ∑ k < 128, mean[r,k] · W[128+k,q]  +  b[q]

  (the first layer followed by the maximum with zero). The kernel program computes a layer in a region of 20 grid points,
  5000 rows each, as two 128-term products with the two halves of `W`; the reference joins `h` and `mean` into a
  256-wide array and takes one 256-term product. The two agree by splitting a sum over 256 indices into its two halves
  (Proof/SageLaw.lean) — addition alone, so the finiteness of the inputs is not used.

  Modules: SageLaw (the step and the law); Aggregate (the shared host chain as one function, and the network);
  RegionValue (each region's output array is the step of the arrays it finds); HostReads (what the regions find);
  KernelRun (the kernel program's run with its result named); KernelValue (its result is the network);
  RefRunP, RefReadP (the reference's run and its stages); RefValue (the reference's result is the network).
-/
import proofs.«174361_j71854802862598_1_alg».proof.Defs
import proofs.«174361_j71854802862598_1_alg».proof.Proof.Gen.Kernel
import proofs.«174361_j71854802862598_1_alg».proof.Proof.Gen.Kernel.Skeleton
import proofs.«174361_j71854802862598_1_alg».proof.Proof.Gen.Kernel.Launch
import proofs.«174361_j71854802862598_1_alg».proof.Proof.Gen.Kernel.Points
import proofs.«174361_j71854802862598_1_alg».proof.Proof.Gen.Kernel.Frame
import proofs.«174361_j71854802862598_1_alg».proof.Proof.Gen.KernelIdeal
import proofs.«174361_j71854802862598_1_alg».proof.Proof.Gen.KernelIdeal.Skeleton
import proofs.«174361_j71854802862598_1_alg».proof.Proof.Gen.KernelIdeal.Launch
import proofs.«174361_j71854802862598_1_alg».proof.Proof.Gen.KernelIdeal.Points
import proofs.«174361_j71854802862598_1_alg».proof.Proof.Gen.KernelIdeal.Frame
import proofs.«174361_j71854802862598_1_alg».proof.Proof.Gen.ReferenceIdeal
import proofs.«174361_j71854802862598_1_alg».proof.Proof.Gen.Pre_finite_inputs
import proofs.«174361_j71854802862598_1_alg».proof.Proof.RefRunP
import proofs.«174361_j71854802862598_1_alg».proof.Proof.RefReadP
import proofs.«174361_j71854802862598_1_alg».proof.Proof.SageLaw
import proofs.«174361_j71854802862598_1_alg».proof.Proof.Aggregate
import proofs.«174361_j71854802862598_1_alg».proof.Proof.RegionValue
import proofs.«174361_j71854802862598_1_alg».proof.Proof.HostReads
import proofs.«174361_j71854802862598_1_alg».proof.Proof.KernelRun
import proofs.«174361_j71854802862598_1_alg».proof.Proof.KernelValue
import proofs.«174361_j71854802862598_1_alg».proof.Proof.RefValue
import Idealize.ShloMosaic.Adequacy
import Idealize.ShloMosaic.Init

noncomputable section

namespace Cert.Proof

open Idealize.ShloMosaic Idealize.SL.Sem

/-- The three programs run to the end, nothing faulting, the arguments unchanged: the two kernel programs by their
    generated frames, the reference by its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the six arguments, both idealized programs end with the network's result of them. -/
theorem algebraic : Cert.algebraic_KernelIdeal_ReferenceIdeal := by
  intro m ρ m' ρ' _ hagree
  refine ⟨fun c => Cert.KernelIdeal.Aggregate.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v51_eq, Cert.ReferenceIdeal.RefValue.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
